-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S128 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128 .f32) (main_arg7 : FVec F S128x64 .f32) (main_arg8 : FVec F S128x64 .f32) (main_arg9 : FVec F S64 .f32) (main_arg10 : FVec F S128 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S100000x64 .f32) (main_arg2 : IVec S1600000 32) (main_arg3 : IVec S1600000 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S128 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S4000x64 : Shape := ⟨2, ![4000, 64]⟩
abbrev S1x64 : Shape := ⟨2, ![1, 64]⟩

abbrev nBuf : Space → Nat
  | .hbm => 61
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x64, .f32⟩
  | .hbm, ⟨43, _⟩ => ⟨S100000x64, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S64, .f32⟩
  | .hbm, ⟨59, _⟩ => ⟨S1x64, .f32⟩
  | .hbm, ⟨60, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x64_S100000x64_S100000x128_d1 : Shape.Concatenates [S100000x64, S100000x64] S100000x128 1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x128_o0_0_S4000x64 : S4000x128.Slices ![0, 0] S4000x64
  slices_S4000x128_o0_64_S4000x64 : S4000x128.Slices ![0, 64] S4000x64
  inb_S4000x128_S4000x64_0_0 : ∀ a, (![0, 0] : Fin 2 → Nat) a + S4000x64.size a ≤ S4000x128.size a
  h_S4000x64 : 0 < S4000x64.numel
  inb_S4000x128_S4000x64_0_64 : ∀ a, (![0, 64] : Fin 2 → Nat) a + S4000x64.size a ≤ S4000x128.size a
  slices_S100000x128_S100000x64_0_0 : S100000x128.Slices ![0, 0] S100000x64
  slices_S100000x128_S100000x64_0_64 : S100000x128.Slices ![0, 64] S100000x64
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  shapeCasts_S4000x64_S4000x64 : S4000x64.ShapeCasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S100000x64.size a
  hwx1_7 : ∀ i : grid1.Coords, EltTy.bits .f32 = 32 ∨ (Rect.block (s := S100000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S100000x64.size a
  hwx1_8 : ∀ i : grid1.Coords, EltTy.bits .f32 = 32 ∨ (Rect.block (s := S100000x64) S4000x64.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S4000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg1) S4000x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v38) S4000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128, .f32⟩
  | .hbm, ⟨11, _⟩ => ⟨S64, .f32⟩
  | .hbm, ⟨12, _⟩ => ⟨S100000x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x128, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S_, .f32⟩
  | .hbm, ⟨74, _⟩ => ⟨S1600000, .f32⟩
  | .hbm, ⟨75, _⟩ => ⟨S_, .f32⟩
  | .hbm, ⟨76, _⟩ => ⟨S100000, .f32⟩
  | .hbm, ⟨77, _⟩ => ⟨S1600000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  concatenates_S100000x64_S100000x64_S100000x128_d1 : Shape.Concatenates [S100000x64, S100000x64] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x64_0_0 : S100000x128.Slices ![0, 0] S100000x64
  slices_S100000x128_S100000x64_0_64 : S100000x128.Slices ![0, 64] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Stages.lean ====
/-
  The idealized kernel program's host operations, read at each region's entry.

  Before the gate stage the host joins the node inputs and states side by side, sums over every node's incoming edges
  the joined features of the edges' source nodes (negative source numbers wrapped round by the node count), counts every
  node's incoming edges, forms the factor `1 / max(count, 1)` as a column, and adds the gate layer's two bias vectors
  into one row.  Between the stages it cuts the gate array into its reset-times-state half and its update half, joins the
  node inputs with the first, sums that over the edges as before, and adds the candidate layer's two bias vectors.
-/
import proofs.«178876_j27101243638400_2_alg».proof.Proof.Gen.KernelIdeal.Frame
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-- Two 64-wide node arrays side by side. -/
def joined (x y : (⟨S100000x64, .f32⟩ : BufTy).Contents (Elt Ideal)) : (⟨S100000x128, .f32⟩ : BufTy).Contents (Elt Ideal) :=
  concatenate S100000x128 1 [⟨S100000x64, x⟩, ⟨S100000x64, y⟩] concatenates_S100000x64_S100000x64_S100000x128_d1

/-- Source node numbers, a negative one wrapped round by the node count. -/
def wrapped (src : (⟨S1600000, .i32⟩ : BufTy).Contents (Elt Ideal)) : (⟨S1600000, .i32⟩ : BufTy).Contents (Elt Ideal) :=
  select (cmpi .slt src (broadcastInDim S1600000 ![] bcast_S_S1600000 (constantI S_ 32 0#32)))
    (addi src (broadcastInDim S1600000 ![] bcast_S_S1600000 (constantI S_ 32 100000#32))) src

/-- For every node, the sum over its incoming edges of the source nodes' rows of `x`. -/
def neighSum (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0 (wrapped src)))

/-- For every node, the number of its incoming edges. -/
def degree (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The column of factors `1 / max(degree, 1)`. -/
def factor (dst : (⟨S1600000, .i32⟩ : BufTy).Contents (Elt Ideal)) : (⟨S100000x1, .f32⟩ : BufTy).Contents (Elt Ideal) :=
  shapeCast S100000x1
    (Host.divf (broadcastInDim S100000 ![] bcast_S_S100000 (constant (F := Ideal) S_ .f32 0x3F800000#32))
      (maximumf (degree dst) (broadcastInDim S100000 ![] bcast_S_S100000 (constant (F := Ideal) S_ .f32 0x3F800000#32))))
    shapeCasts_S100000_S100000x1

/-- The gate layer's two bias vectors added, as a row. -/
def biasRow128 (b₁ b₂ : FVec Ideal S128 .f32) : FVec Ideal S1x128 .f32 :=
  shapeCast S1x128 (addf b₁ b₂ : FVec Ideal S128 .f32) shapeCasts_S128_S1x128

/-- The candidate layer's two bias vectors added, as a row. -/
def biasRow64 (b₁ b₂ : FVec Ideal S64 .f32) : FVec Ideal S1x64 .f32 :=
  shapeCast S1x64 (addf b₁ b₂ : FVec Ideal S64 .f32) shapeCasts_S64_S1x64

variable (m : (ℓ : Loc nD τ sig) → Buf (Elt Ideal) ℓ) (ρ : Dev nD → PrngReg) (c : Dev nD)

/-- The gate array as the gate stage leaves it. -/
abbrev gateArr : (⟨S100000x128, .f32⟩ : BufTy).Contents (Elt Ideal) := (dat0 (V1 m ρ) c).arrAt 6 cfg0.N

/-! ## What the gate stage leaves in the buffers the host reads next

The gate stage writes its own arrays only.  An argument it holds no window on is as launched; its result array is what
its pipeline leaves; the factor column, which it only reads, is as it was at its entry. -/

theorem W2_arg0 : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

theorem W2_arg1 : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem W2_arg2 : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem W2_arg3 : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem W2_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

theorem W2_arg8 : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results

theorem W2_arg9 : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

theorem W2_arg11 : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

theorem W2_v22 : W2 m ρ c (Proc.devRef .tc main_v22) = gateArr m ρ c := W2_arr m ρ c 6

/-! ## At the gate stage's entry -/

theorem V1_v9 : V1 m ρ c main_v9 = joined (m ((c : Thread nD τ).loc main_arg0)) (m ((c : Thread nD τ).loc main_arg1)) := by
  show StableHlo.after hostOps0 (W0 m ρ c) (Proc.devRef .tc main_v9) = _
  after_results
  rfl

theorem V1_v19 : V1 m ρ c main_v19
    = neighSum (joined (m ((c : Thread nD τ).loc main_arg0)) (m ((c : Thread nD τ).loc main_arg1)))
        (m ((c : Thread nD τ).loc main_arg2)) (m ((c : Thread nD τ).loc main_arg3)) := by
  show StableHlo.after hostOps0 (W0 m ρ c) (Proc.devRef .tc main_v19) = _
  after_results_simp
  rfl

theorem V1_v8 : V1 m ρ c main_v8 = factor (m ((c : Thread nD τ).loc main_arg3)) := by
  show StableHlo.after hostOps0 (W0 m ρ c) (Proc.devRef .tc main_v8) = _
  after_results
  rfl

theorem V1_v21 : V1 m ρ c main_v21
    = biasRow128 (m ((c : Thread nD τ).loc main_arg6)) (m ((c : Thread nD τ).loc main_arg10)) := by
  show StableHlo.after hostOps0 (W0 m ρ c) (Proc.devRef .tc main_v21) = _
  after_results_simp
  rfl

theorem V1_arg4 : V1 m ρ c main_arg4 = m ((c : Thread nD τ).loc main_arg4) := by
  show StableHlo.after hostOps0 (W0 m ρ c) (Proc.devRef .tc main_arg4) = _
  after_results

theorem V1_arg5 : V1 m ρ c main_arg5 = m ((c : Thread nD τ).loc main_arg5) := by
  show StableHlo.after hostOps0 (W0 m ρ c) (Proc.devRef .tc main_arg5) = _
  after_results

/-! ## At the candidate stage's entry -/

theorem V3_v25 : V3 m ρ c main_v25
    = joined (m ((c : Thread nD τ).loc main_arg0))
        (extractStridedSlice S100000x64 ![0, 0] (gateArr m ρ c) slices_S100000x128_S100000x64_0_0) := by
  show StableHlo.after hostOps1 (W2 m ρ c) (Proc.devRef .tc main_v25) = _
  after_results
  rw [W2_arg0, W2_v22]
  rfl

theorem V3_v35 : V3 m ρ c main_v35
    = neighSum (joined (m ((c : Thread nD τ).loc main_arg0))
          (extractStridedSlice S100000x64 ![0, 0] (gateArr m ρ c) slices_S100000x128_S100000x64_0_0))
        (m ((c : Thread nD τ).loc main_arg2)) (m ((c : Thread nD τ).loc main_arg3)) := by
  show StableHlo.after hostOps1 (W2 m ρ c) (Proc.devRef .tc main_v35) = _
  after_results_simp
  repeat (first
    | rw [unary_result]
    | (rw [unary_result_ne]; rotate_left; decide))
  rw [W2_arg0, W2_v22, W2_arg2, W2_arg3]
  rfl

theorem V3_v8 : V3 m ρ c main_v8 = factor (m ((c : Thread nD τ).loc main_arg3)) := by
  show StableHlo.after hostOps1 (W2 m ρ c) (Proc.devRef .tc main_v8) = _
  after_results
  exact (W2_arr m ρ c 2).trans (((dat0 (V1 m ρ) c).arrAt_in 2 rfl _).trans ((A_eq0 (V1 m ρ) c 2).trans (V1_v8 m ρ c)))

theorem V3_v37 : V3 m ρ c main_v37
    = biasRow64 (m ((c : Thread nD τ).loc main_arg9)) (m ((c : Thread nD τ).loc main_arg11)) := by
  show StableHlo.after hostOps1 (W2 m ρ c) (Proc.devRef .tc main_v37) = _
  after_results_simp
  rw [W2_arg9, W2_arg11]
  rfl

theorem V3_v24 : V3 m ρ c main_v24
    = extractStridedSlice S100000x64 ![0, 64] (gateArr m ρ c) slices_S100000x128_S100000x64_0_64 := by
  show StableHlo.after hostOps1 (W2 m ρ c) (Proc.devRef .tc main_v24) = _
  after_results
  rw [W2_v22]

theorem V3_arg7 : V3 m ρ c main_arg7 = m ((c : Thread nD τ).loc main_arg7) := by
  show StableHlo.after hostOps1 (W2 m ρ c) (Proc.devRef .tc main_arg7) = _
  after_results
  exact W2_arg7 m ρ c

theorem V3_arg8 : V3 m ρ c main_arg8 = m ((c : Thread nD τ).loc main_arg8) := by
  show StableHlo.after hostOps1 (W2 m ρ c) (Proc.devRef .tc main_arg8) = _
  after_results
  exact W2_arg8 m ρ c

theorem V3_arg1 : V3 m ρ c main_arg1 = m ((c : Thread nD τ).loc main_arg1) := by
  show StableHlo.after hostOps1 (W2 m ρ c) (Proc.devRef .tc main_arg1) = _
  after_results
  exact W2_arg1 m ρ c

end Cert.KernelIdeal.Stages

end
-- ==== Proof.Cell.lean ====
/-
  A gated recurrent cell whose two layers are graph convolutions with mean aggregation, entry by entry on the
  extended reals.

  One layer, at node `p` and output feature `q`: row `p` of the node features `x` against column `q` of the
  self weights, plus row `p` of the summed neighbour features `agg`, each entry scaled by the node's factor `s p`
  (the reciprocal of its in-degree, floored at one), against column `q` of the neighbour weights, plus the bias of
  column `q`.

  The gate layer has 128 output features.  Its logistic is split in two halves of 64: the first half (the reset gate)
  is multiplied by the second half of the node's own features (its state), the second half (the update gate) is kept.
  `gate` is the 128-wide array holding (reset · state | update).

  The candidate layer has 64 output features; with its hyperbolic tangent `c` and the update gate `u` the new state is
  `u · state + (1 − u) · c`.

  Every entry depends on ONE row of the node arrays only, so a block of consecutive rows of a result is the same
  formula applied to that block of rows of the operands (`gateAt_rows`, `candAt_rows`).
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Cell

open Idealize.ShloMosaic Idealize.ShloMosaic.ValueIdx

/-- An `a × b` array of extended reals. -/
abbrev Arr (a b : ℕ) : Type := (⟨2, ![a, b]⟩ : Shape).Idx → EReal

/-- Feature `j` of the first half of a 128-wide row. -/
def lo (j : Fin 64) : Fin 128 := ⟨j.val, by omega⟩
/-- Feature `j` of the second half of a 128-wide row. -/
def hi (j : Fin 64) : Fin 128 := ⟨64 + j.val, by omega⟩

theorem lo_val (j : Fin 64) : (lo j).val = j.val := rfl
theorem hi_val (j : Fin 64) : (hi j).val = 64 + j.val := rfl

/-- The pattern of the number one denotes one. -/
theorem one_word : Ideal.ofBits .f32 0x3F800000#32 = 1 := IdealRules.sign_bit.ideal_onePat .f32

/-- One graph-convolution layer before its activation, at node `p` and output feature `q`. -/
def layerAt {M N : ℕ} (x agg : Arr M 128) (s : Fin M → EReal) (ws wn : Arr 128 N) (b : Fin N → EReal)
    (p : Fin M) (q : Fin N) : EReal :=
  ((∑ k : Fin 128, x (ix2 p k) * ws (ix2 k q)) + ∑ k : Fin 128, (agg (ix2 p k) * s p) * wn (ix2 k q)) + b q

/-- A layer's entry at node `p` reads row `p` of the node arrays only. -/
theorem layerAt_rows {M m N : ℕ} (x agg : Arr M 128) (xb aggb : Arr m 128) (s : Fin M → EReal) (sb : Fin m → EReal)
    (ws wn : Arr 128 N) (b : Fin N → EReal) (p : Fin m) (P : Fin M) (q : Fin N)
    (hx : ∀ k : Fin 128, xb (ix2 p k) = x (ix2 P k)) (ha : ∀ k : Fin 128, aggb (ix2 p k) = agg (ix2 P k))
    (hs : sb p = s P) : layerAt xb aggb sb ws wn b p q = layerAt x agg s ws wn b P q := by
  unfold layerAt
  rw [hs]
  exact congrArg (· + b q) (congrArg₂ (· + ·) (Finset.sum_congr rfl fun k _ => by rw [hx k])
    (Finset.sum_congr rfl fun k _ => by rw [ha k]))

/-- Entry `(p, q)` of the gate array: below feature 64 the reset gate times the node's state, from 64 on the
    update gate. -/
def gateAt {M : ℕ} (x agg : Arr M 128) (s : Fin M → EReal) (ws wn : Arr 128 128) (b : Fin 128 → EReal)
    (p : Fin M) (q : Fin 128) : EReal :=
  if q.val < 64 then
    Ideal.logistic (layerAt x agg s ws wn b p q) * x (ix2 p (hi ⟨q.val % 64, Nat.mod_lt _ (by norm_num)⟩))
  else Ideal.logistic (layerAt x agg s ws wn b p q)

/-- The gate array (reset · state | update). -/
def gate {M : ℕ} (x agg : Arr M 128) (s : Fin M → EReal) (ws wn : Arr 128 128) (b : Fin 128 → EReal) : Arr M 128 :=
  fun i => gateAt x agg s ws wn b (i 0) (i 1)

theorem gate_ix2 {M : ℕ} (x agg : Arr M 128) (s : Fin M → EReal) (ws wn : Arr 128 128) (b : Fin 128 → EReal)
    (p : Fin M) (q : Fin 128) : gate x agg s ws wn b (ix2 p q) = gateAt x agg s ws wn b p q := rfl

/-- The first half of the gate array: reset gate times state. -/
theorem gateAt_lo {M : ℕ} (x agg : Arr M 128) (s : Fin M → EReal) (ws wn : Arr 128 128) (b : Fin 128 → EReal)
    (p : Fin M) (j : Fin 64) :
    gateAt x agg s ws wn b p (lo j) = Ideal.logistic (layerAt x agg s ws wn b p (lo j)) * x (ix2 p (hi j)) := by
  unfold gateAt
  rw [if_pos (show (lo j).val < 64 from j.isLt)]
  have : (⟨(lo j).val % 64, Nat.mod_lt _ (by norm_num)⟩ : Fin 64) = j := Fin.ext (Nat.mod_eq_of_lt j.isLt)
  rw [this]

/-- The second half of the gate array: the update gate. -/
theorem gateAt_hi {M : ℕ} (x agg : Arr M 128) (s : Fin M → EReal) (ws wn : Arr 128 128) (b : Fin 128 → EReal)
    (p : Fin M) (j : Fin 64) :
    gateAt x agg s ws wn b p (hi j) = Ideal.logistic (layerAt x agg s ws wn b p (hi j)) := by
  unfold gateAt
  rw [if_neg (show ¬ (hi j).val < 64 by rw [hi_val]; omega)]

/-- A gate entry at node `p` reads row `p` of the node arrays only. -/
theorem gateAt_rows {M m : ℕ} (x agg : Arr M 128) (xb aggb : Arr m 128) (s : Fin M → EReal) (sb : Fin m → EReal)
    (ws wn : Arr 128 128) (b : Fin 128 → EReal) (p : Fin m) (P : Fin M) (q : Fin 128)
    (hx : ∀ k : Fin 128, xb (ix2 p k) = x (ix2 P k)) (ha : ∀ k : Fin 128, aggb (ix2 p k) = agg (ix2 P k))
    (hs : sb p = s P) : gateAt xb aggb sb ws wn b p q = gateAt x agg s ws wn b P q := by
  unfold gateAt
  rw [layerAt_rows x agg xb aggb s sb ws wn b p P q hx ha hs, hx]

/-- Entry `(p, q)` of the new state: `u · state + (1 − u) · tanh (candidate layer)`. -/
def candAt {M : ℕ} (xc agg : Arr M 128) (s : Fin M → EReal) (ws wn : Arr 128 64) (b : Fin 64 → EReal)
    (u st : Arr M 64) (p : Fin M) (q : Fin 64) : EReal :=
  u (ix2 p q) * st (ix2 p q)
    + (Ideal.ofBits .f32 0x3F800000#32 - u (ix2 p q)) * Ideal.tanh (layerAt xc agg s ws wn b p q)

/-- The new state. -/
def cand {M : ℕ} (xc agg : Arr M 128) (s : Fin M → EReal) (ws wn : Arr 128 64) (b : Fin 64 → EReal)
    (u st : Arr M 64) : Arr M 64 :=
  fun i => candAt xc agg s ws wn b u st (i 0) (i 1)

theorem cand_ix2 {M : ℕ} (xc agg : Arr M 128) (s : Fin M → EReal) (ws wn : Arr 128 64) (b : Fin 64 → EReal)
    (u st : Arr M 64) (p : Fin M) (q : Fin 64) : cand xc agg s ws wn b u st (ix2 p q) = candAt xc agg s ws wn b u st p q :=
  rfl

/-- A new-state entry at node `p` reads row `p` of the node arrays only. -/
theorem candAt_rows {M m : ℕ} (xc agg : Arr M 128) (xb aggb : Arr m 128) (s : Fin M → EReal) (sb : Fin m → EReal)
    (ws wn : Arr 128 64) (b : Fin 64 → EReal) (u st : Arr M 64) (ub stb : Arr m 64) (p : Fin m) (P : Fin M) (q : Fin 64)
    (hx : ∀ k : Fin 128, xb (ix2 p k) = xc (ix2 P k)) (ha : ∀ k : Fin 128, aggb (ix2 p k) = agg (ix2 P k))
    (hs : sb p = s P) (hu : ub (ix2 p q) = u (ix2 P q)) (hst : stb (ix2 p q) = st (ix2 P q)) :
    candAt xb aggb sb ws wn b ub stb p q = candAt xc agg s ws wn b u st P q := by
  unfold candAt
  rw [layerAt_rows xc agg xb aggb s sb ws wn b p P q hx ha hs, hu, hst]

/-! ## The two spellings of a layer -/

/-- Dividing by a number that is at least one is multiplying by its reciprocal, at every extended real. -/
theorem mul_recip (a d : EReal) (hd : (1 : EReal) ≤ d) : a * Ideal.div 1 d = Ideal.div a d := by
  have h01 : (0 : EReal) < 1 := by exact_mod_cast (zero_lt_one : (0 : ℝ) < 1)
  have h0 : d ≠ 0 := (lt_of_lt_of_le h01 hd).ne'
  unfold Ideal.div
  rw [if_neg h0, if_neg h0, one_mul]

/-- A layer whose neighbour sum is divided by the floored in-degree `d ≥ 1` and whose two biases are added one after
    the other is the layer with the factor `1 / d` and the bias `b₁ + b₂`. -/
theorem layer_div_form {M N : ℕ} (x agg : Arr M 128) (d : Fin M → EReal) (hd : ∀ p, (1 : EReal) ≤ d p)
    (ws wn : Arr 128 N) (b₁ b₂ : Fin N → EReal) (p : Fin M) (q : Fin N) :
    (((∑ k : Fin 128, x (ix2 p k) * ws (ix2 k q)) + ∑ k : Fin 128, Ideal.div (agg (ix2 p k)) (d p) * wn (ix2 k q)) + b₁ q)
        + b₂ q
      = layerAt x agg (fun p => Ideal.div 1 (d p)) ws wn (fun q => b₁ q + b₂ q) p q := by
  unfold layerAt
  rw [add_assoc]
  refine congrArg (· + (b₁ q + b₂ q)) (congrArg (_ + ·) (Finset.sum_congr rfl fun k _ => ?_))
  rw [mul_recip _ _ (hd p)]

/-- The logistic function written out with the pattern of one: `1 / (1 + e^(−y))`. -/
theorem logistic_words (y : EReal) :
    Ideal.div (Ideal.ofBits .f32 0x3F800000#32) (Ideal.ofBits .f32 0x3F800000#32 + Ideal.exp (-y)) = Ideal.logistic y := by
  rw [one_word]; rfl

end Cert.Cell

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.GateBlock.lean ====
/-
  One block of the gate stage.  For a block of 4000 nodes the body forms the gate layer of the block's rows — the block of
  node features against the self weights, the block of summed neighbour features scaled row by row by the block of
  factors against the neighbour weights, the bias row — takes its logistic, and stores the first 64 features times the
  second 64 features of the node block (reset gate times state) beside the last 64 features (update gate).  What it
  leaves is the gate array of the block's rows.
-/
import proofs.«178876_j27101243638400_2_alg».proof.Proof.Gen.KernelIdeal.Frame
import proofs.«178876_j27101243638400_2_alg».proof.Proof.Cell
import proofs.«178876_j27101243638400_2_alg».proof.Proof.LibPlainMatmul
import proofs.«178876_j27101243638400_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GateBlock

open Cert.KernelIdeal Cert.KernelIdeal.Gen Cert.Cell
open Idealize.ShloMosaic Idealize.ShloMosaic.ValueIdx

theorem hz : (![0, 0] : Fin 2 → Nat) = fun _ => 0 := funext fun a => by fin_cases a <;> rfl

variable (x0 x1 : Vec Ideal S4000x128 .f32) (x2 : Vec Ideal S4000x1 .f32) (x3 x4 : Vec Ideal S128x128 .f32)
  (x5 : Vec Ideal S1x128 .f32)

/-- The block's factors, one per row. -/
abbrev colOf (x2 : Vec Ideal S4000x1 .f32) : Fin 4000 → EReal := fun p => x2 (ix2 p (0 : Fin 1))
/-- The bias row's entries. -/
abbrev rowOf (x5 : Vec Ideal S1x128 .f32) : Fin 128 → EReal := fun q => x5 (ix2 (0 : Fin 1) q)

/-- The logistic of the gate layer, at row `p` and feature `q` of the block. -/
theorem logistic_apply (p : Fin 4000) (q : Fin 128) :
    k0_pay2 x0 x1 x2 x3 x4 x5 (ix2 p q) = Ideal.logistic (layerAt x0 x1 (colOf x2) x3 x4 (rowOf x5) p q) := by
  unfold k0_pay2 k0_pay1 layerAt
  dsimp only
  refine congrArg Ideal.logistic (congrArg₂ (· + ·) (congrArg₂ (· + ·) ?_ ?_) ?_)
  · refine (Cert.LibPlainMatmul.matmul_plain_zero_apply _ rfl none _ _ p q).trans (Finset.sum_congr rfl fun k _ => ?_)
    rw [shapeCast_self]; rfl
  · refine (Cert.LibPlainMatmul.matmul_plain_zero_apply _ rfl none _ _ p q).trans (Finset.sum_congr rfl fun k _ => ?_)
    show (shapeCast _ x1 _ (ix2 p k) * broadcastTo _ (shapeCast _ x2 _) _ (ix2 p k)) * x4 (ix2 k q) = _
    rw [shapeCast_self, shapeCast_self, Cert.LibColumn.broadcastTo_a1_ab_apply]
  · rw [shapeCast_self]; exact broadcastTo_1b_ab_apply _ _ p q

/-- The second stored piece: the update gate, feature `64 + j` of the logistic. -/
theorem update_apply (p : Fin 4000) (j : Fin 64) :
    k0_pay3 x0 x1 x2 x3 x4 x5 (ix2 p j) = gateAt x0 x1 (colOf x2) x3 x4 (rowOf x5) p (hi j) := by
  unfold k0_pay3
  rw [gateAt_hi]
  exact (slice2_axis1_apply 64 _ _ p j (hi j) rfl).trans (logistic_apply x0 x1 x2 x3 x4 x5 p (hi j))

/-- The first stored piece: feature `j` of the logistic times feature `64 + j` of the node block. -/
theorem reset_apply (p : Fin 4000) (j : Fin 64) :
    k0_pay4 x0 x1 x2 x3 x4 x5 (ix2 p j) = gateAt x0 x1 (colOf x2) x3 x4 (rowOf x5) p (lo j) := by
  unfold k0_pay4 k0_pay1
  rw [gateAt_lo]
  refine congrArg₂ (· * ·) ?_ ?_
  · exact (slice2_axis1_apply 0 _ _ p j (lo j) (by rw [lo_val]; omega)).trans (logistic_apply x0 x1 x2 x3 x4 x5 p (lo j))
  · refine (slice2_axis1_apply 64 _ _ p j (hi j) rfl).trans ?_
    rw [shapeCast_self]

/-- What the body leaves in the output block is the gate array of the block's rows: its two stored pieces are the
    two column halves of that one array, and together they cover the block. -/
theorem block_eq : out0_6 x0 x1 x2 x3 x4 x5 = gate x0 x1 (colOf x2) x3 x4 (rowOf x5) := by
  funext y
  unfold out0_6
  simp only [View.ld_unit_zero (S := S4000x128) hz, View.ld_unit_zero (S := S4000x1) hz,
    View.ld_unit_zero (S := S128x128) hz, View.ld_unit_zero (S := S1x128) hz]
  refine View.canon_apply_of_pieces (Val := Elt Ideal) (gate x0 x1 (colOf x2) x3 x4 (rowOf x5)) _ (fun pc hpc x => ?_) y (cover0_6 _ _ y)
  rcases List.mem_cons.mp hpc with rfl | hpc
  · obtain ⟨p, j, rfl⟩ : ∃ (p : Fin 4000) (j : Fin 64), x = ix2 p j := ⟨x 0, x 1, eq_ix2 x⟩
    have hemb : r0_5.emb (ix2 p j) = ix2 p (hi j) := funext fun a => Fin.ext (by
      match a with
      | ⟨0, _⟩ => show 0 + 1 * p.val = p.val; omega
      | ⟨1, _⟩ => show 64 + 1 * j.val = 64 + j.val; omega)
    show k0_pay3 x0 x1 x2 x3 x4 x5 (ix2 p j) = gate x0 x1 (colOf x2) x3 x4 (rowOf x5) (r0_5.emb (ix2 p j))
    rw [hemb, gate_ix2]
    exact update_apply x0 x1 x2 x3 x4 x5 p j
  · obtain rfl := List.mem_singleton.mp hpc
    obtain ⟨p, j, rfl⟩ : ∃ (p : Fin 4000) (j : Fin 64), x = ix2 p j := ⟨x 0, x 1, eq_ix2 x⟩
    have hemb : r0_4.emb (ix2 p j) = ix2 p (lo j) := funext fun a => Fin.ext (by
      match a with
      | ⟨0, _⟩ => show 0 + 1 * p.val = p.val; omega
      | ⟨1, _⟩ => show 0 + 1 * j.val = j.val; omega)
    show k0_pay4 x0 x1 x2 x3 x4 x5 (ix2 p j) = gate x0 x1 (colOf x2) x3 x4 (rowOf x5) (r0_4.emb (ix2 p j))
    rw [hemb, gate_ix2]
    exact reset_apply x0 x1 x2 x3 x4 x5 p j

end Cert.KernelIdeal.GateBlock

end
-- ==== Proof.GateArray.lean ====
/-
  From blocks to the array, gate stage.  The grid has 25 points; point `t` reads rows `4000·t … 4000·t + 3999` of the
  node features, of the summed neighbour features and of the factor column, the whole weight matrices and the whole bias
  row, and writes back rows `4000·t … 4000·t + 3999` of the result.  An entry of the gate array reads one row of the node
  arrays only, so what point `t` writes back is block `t` of the gate array of the WHOLE arrays; the 25 blocks cover all
  100000 rows, so the result array ends as that gate array.
-/
import proofs.«178876_j27101243638400_2_alg».proof.Proof.Gen.KernelIdeal.Frame
import proofs.«178876_j27101243638400_2_alg».proof.Proof.Cell
import proofs.«178876_j27101243638400_2_alg».proof.Proof.GateBlock
import Idealize.ShloMosaic.Lib.Pipeline.Value
import Idealize.ShloMosaic.Lib.ValueIdx

set_option maxRecDepth 16384

noncomputable section

open scoped BigOperators

namespace Cert.KernelIdeal.GateArray

open Cert.KernelIdeal Cert.KernelIdeal.Gen Cert.Cell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The gate array of the whole arrays as the stage finds them. -/
def whole (c : Dev nD) : Arr 100000 128 :=
  gate (V c main_v9) (V c main_v19) (fun p => V c main_v8 (ix2 p (0 : Fin 1))) (V c main_arg4) (V c main_arg5)
    (fun q => V c main_v21 (ix2 (0 : Fin 1) q))

/-- The printed index maps over the grid: the three node windows and the result window move with the point along the
    rows, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `4000·t + p` of the array. -/
def rowAt (t : Fin cfg0.N) (p : Fin 4000) : Fin 100000 :=
  ⟨t.val * 4000 + p.val, by have h : cfg0.N = 25 := N_0; have := t.isLt; have := p.isLt; omega⟩

theorem rowAt_val (t : Fin cfg0.N) (p : Fin 4000) : (rowAt t p).val = t.val * 4000 + p.val := rfl

/-! ## Each window's block, read where it sits in its array -/

theorem read0 (c : Dev nD) (t : Fin cfg0.N) (p : Fin 4000) (k : Fin 128) :
    iblk0 V c 0 t (ix2 p k) = V c main_v9 (ix2 (rowAt t p) k) := by
  obtain ⟨e0, e1, -⟩ := idx_facts t
  have h : ((cfg0.win 0).blk t).view.emb (ix2 p k) = ix2 (rowAt t p) k := by
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  show V c main_v9 (((cfg0.win 0).blk t).view.emb (ix2 p k)) = _
  rw [h]

theorem read1 (c : Dev nD) (t : Fin cfg0.N) (p : Fin 4000) (k : Fin 128) :
    iblk0 V c 1 t (ix2 p k) = V c main_v19 (ix2 (rowAt t p) k) := by
  obtain ⟨-, -, e0, e1, -⟩ := idx_facts t
  have h : ((cfg0.win 1).blk t).view.emb (ix2 p k) = ix2 (rowAt t p) k := by
    funext a; apply Fin.ext
    match a with
    | ⟨0, _⟩ => show win0_1.index t (0 : Fin 2) * 4000 + 1 * p.val = t.val * 4000 + p.val; omega
    | ⟨1, _⟩ => show win0_1.index t (1 : Fin 2) * 128 + 1 * k.val = k.val; omega
  show V c main_v19 (((cfg0.win 1).blk t).view.emb (ix2 p k)) = _
  rw [h]

theorem read2 (c : Dev nD) (t : Fin cfg0.N) (p : Fin 4000) :
    iblk0 V c 2 t (ix2 p (0 : Fin 1)) = V c main_v8 (ix2 (rowAt t p) (0 : Fin 1)) := by
  obtain ⟨-, -, -, -, e0, e1, -⟩ := idx_facts t
  have h : ((cfg0.win 2).blk t).view.emb (ix2 p (0 : Fin 1)) = ix2 (rowAt t p) (0 : Fin 1) := by
    funext a; apply Fin.ext
    match a with
    | ⟨0, _⟩ => show win0_2.index t (0 : Fin 2) * 4000 + 1 * p.val = t.val * 4000 + p.val; omega
    | ⟨1, _⟩ => show win0_2.index t (1 : Fin 2) * 1 + 1 * 0 = 0; omega
  show V c main_v8 (((cfg0.win 2).blk t).view.emb (ix2 p (0 : Fin 1))) = _
  rw [h]

theorem read3 (c : Dev nD) (t : Fin cfg0.N) : iblk0 V c 3 t = V c main_arg4 := by
  obtain ⟨-, -, -, -, -, -, e0, e1, -⟩ := idx_facts t
  funext y
  obtain ⟨k, q, rfl⟩ : ∃ (k : Fin 128) (q : Fin 128), y = ix2 k q := ⟨y 0, y 1, eq_ix2 y⟩
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  show V c main_arg4 (((cfg0.win 3).blk t).view.emb (ix2 k q)) = _
  rw [h]

theorem read4 (c : Dev nD) (t : Fin cfg0.N) : iblk0 V c 4 t = V c main_arg5 := by
  obtain ⟨-, -, -, -, -, -, -, -, e0, e1, -⟩ := idx_facts t
  funext y
  obtain ⟨k, q, rfl⟩ : ∃ (k : Fin 128) (q : Fin 128), y = ix2 k q := ⟨y 0, y 1, eq_ix2 y⟩
  have h : ((cfg0.win 4).blk t).view.emb (ix2 k q) = ix2 k q := by
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  show V c main_arg5 (((cfg0.win 4).blk t).view.emb (ix2 k q)) = _
  rw [h]

theorem read5 (c : Dev nD) (t : Fin cfg0.N) (q : Fin 128) :
    iblk0 V c 5 t (ix2 (0 : Fin 1) q) = V c main_v21 (ix2 (0 : Fin 1) q) := by
  obtain ⟨-, -, -, -, -, -, -, -, -, -, e0, e1, -⟩ := idx_facts t
  have h : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  show V c main_v21 (((cfg0.win 5).blk t).view.emb (ix2 (0 : Fin 1) q)) = _
  rw [h]

/-! ## What a point writes back, the cover, the array -/

/-- What point `t` writes back is block `t` of the gate array of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6, GateBlock.block_eq]
  obtain ⟨-, -, -, -, -, -, -, -, -, -, -, -, e0, e1⟩ := idx_facts t
  funext j
  obtain ⟨p, q, rfl⟩ : ∃ (p : Fin 4000) (q : Fin 128), j = ix2 p q := ⟨j 0, j 1, eq_ix2 j⟩
  have hemb : ((cfg0.win 6).blk t).view.emb (ix2 p q) = ix2 (rowAt t p) q := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  show gate (iblk0 V c 0 t) (iblk0 V c 1 t) (GateBlock.colOf (iblk0 V c 2 t)) (iblk0 V c 3 t) (iblk0 V c 4 t)
      (GateBlock.rowOf (iblk0 V c 5 t)) (ix2 p q) = whole V c (((cfg0.win 6).blk t).view.emb (ix2 p q))
  rw [hemb, read3, read4]
  have hb : GateBlock.rowOf (iblk0 V c 5 t) = fun q => V c main_v21 (ix2 (0 : Fin 1) q) := funext fun q => read5 V c t q
  rw [hb]
  unfold whole
  rw [gate_ix2, gate_ix2]
  exact gateAt_rows _ _ _ _ _ _ _ _ _ p (rowAt t p) q (read0 V c t p) (read1 V c t p) (read2 V c t p)

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v22).slice (win0_6.rect t)).set ↔ _
  rw [View.set_slice_whole, Rect.mem_set_unit]
  exact Iff.rfl

/-- Every row is in the block of the point numbered by the row's quotient by 4000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The result array after the gate stage is the gate array of the whole arrays. -/
theorem final (c : Dev nD) : (dat0 V c).arrAt 6 cfg0.N = whole V c :=
  (dat0 V c).arrAt_eq_of_cover 6 (whole V c) (fun t _ => flushed_eq V c t) cover

end Cert.KernelIdeal.GateArray

end
-- ==== Proof.CandBlock.lean ====
/-
  One block of the candidate stage.  For a block of 4000 nodes the body forms the candidate layer of the block's rows,
  takes its hyperbolic tangent `c`, and stores `u · state + (1 − u) · c` with `u` the block of the update gate and
  `state` the block of the node states.  What it leaves is the new state of the block's rows.
-/
import proofs.«178876_j27101243638400_2_alg».proof.Proof.Gen.KernelIdeal.Frame
import proofs.«178876_j27101243638400_2_alg».proof.Proof.Cell
import proofs.«178876_j27101243638400_2_alg».proof.Proof.LibPlainMatmul
import proofs.«178876_j27101243638400_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.CandBlock

open Cert.KernelIdeal Cert.KernelIdeal.Gen Cert.Cell
open Idealize.ShloMosaic Idealize.ShloMosaic.ValueIdx

theorem hz : (![0, 0] : Fin 2 → Nat) = fun _ => 0 := funext fun a => by fin_cases a <;> rfl

variable (x0 x1 : Vec Ideal S4000x128 .f32) (x2 : Vec Ideal S4000x1 .f32) (x3 x4 : Vec Ideal S128x64 .f32)
  (x5 : Vec Ideal S1x64 .f32) (x6 x7 : Vec Ideal S4000x64 .f32)

/-- The block's factors, one per row. -/
abbrev colOf (x2 : Vec Ideal S4000x1 .f32) : Fin 4000 → EReal := fun p => x2 (ix2 p (0 : Fin 1))
/-- The bias row's entries. -/
abbrev rowOf (x5 : Vec Ideal S1x64 .f32) : Fin 64 → EReal := fun q => x5 (ix2 (0 : Fin 1) q)

/-- The stored value at row `p` and feature `q` of the block. -/
theorem new_apply (p : Fin 4000) (q : Fin 64) :
    k1_pay1 x0 x1 x2 x3 x4 x5 x6 x7 (ix2 p q) = candAt x0 x1 (colOf x2) x3 x4 (rowOf x5) x6 x7 p q := by
  unfold k1_pay1 candAt layerAt
  refine congrArg₂ (· + ·) ?_ (congrArg₂ (· * ·) ?_ (congrArg Ideal.tanh (congrArg₂ (· + ·) (congrArg₂ (· + ·) ?_ ?_) ?_)))
  · show shapeCast _ x6 _ (ix2 p q) * x7 (ix2 p q) = _
    rw [shapeCast_self]
  · show Ideal.ofBits .f32 0x3F800000#32 - shapeCast _ x6 _ (ix2 p q) = _
    rw [shapeCast_self]
  · refine (Cert.LibPlainMatmul.matmul_plain_zero_apply _ rfl none _ _ p q).trans (Finset.sum_congr rfl fun k _ => ?_)
    rw [shapeCast_self]; rfl
  · refine (Cert.LibPlainMatmul.matmul_plain_zero_apply _ rfl none _ _ p q).trans (Finset.sum_congr rfl fun k _ => ?_)
    show (shapeCast _ x1 _ (ix2 p k) * broadcastTo _ (shapeCast _ x2 _) _ (ix2 p k)) * x4 (ix2 k q) = _
    rw [shapeCast_self, shapeCast_self, Cert.LibColumn.broadcastTo_a1_ab_apply]
  · rw [shapeCast_self]; exact broadcastTo_1b_ab_apply _ _ p q

/-- What the body leaves in the output block is the new state of the block's rows. -/
theorem block_eq : out1_8 x0 x1 x2 x3 x4 x5 x6 x7 = cand x0 x1 (colOf x2) x3 x4 (rowOf x5) x6 x7 := by
  unfold out1_8
  rw [View.canon_unit_zero hz]
  simp only [View.ld_unit_zero (S := S4000x128) hz, View.ld_unit_zero (S := S4000x1) hz,
    View.ld_unit_zero (S := S128x64) hz, View.ld_unit_zero (S := S1x64) hz, View.ld_unit_zero (S := S4000x64) hz]
  funext y
  obtain ⟨p, q, rfl⟩ : ∃ (p : Fin 4000) (q : Fin 64), y = ix2 p q := ⟨y 0, y 1, eq_ix2 y⟩
  rw [cand_ix2]
  exact new_apply x0 x1 x2 x3 x4 x5 x6 x7 p q

end Cert.KernelIdeal.CandBlock

end
-- ==== Proof.CandArray.lean ====
/-
  From blocks to the array, candidate stage.  The grid has 25 points; point `t` reads rows `4000·t … 4000·t + 3999` of
  the candidate input, of its summed neighbour features, of the factor column, of the update gate and of the node states,
  the whole weight matrices and the whole bias row, and writes back rows `4000·t … 4000·t + 3999` of the new state.  An
  entry of the new state reads one row of the node arrays only, so what point `t` writes back is block `t` of the new
  state of the WHOLE arrays; the 25 blocks cover all 100000 rows, so the result array ends as that new state.
-/
import proofs.«178876_j27101243638400_2_alg».proof.Proof.Gen.KernelIdeal.Frame
import proofs.«178876_j27101243638400_2_alg».proof.Proof.Cell
import proofs.«178876_j27101243638400_2_alg».proof.Proof.CandBlock
import Idealize.ShloMosaic.Lib.Pipeline.Value
import Idealize.ShloMosaic.Lib.ValueIdx

set_option maxRecDepth 16384

noncomputable section

open scoped BigOperators

namespace Cert.KernelIdeal.CandArray

open Cert.KernelIdeal Cert.KernelIdeal.Gen Cert.Cell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The new state of the whole arrays as the stage finds them. -/
def whole (c : Dev nD) : Arr 100000 64 :=
  cand (V c main_v25) (V c main_v35) (fun p => V c main_v8 (ix2 p (0 : Fin 1))) (V c main_arg7) (V c main_arg8)
    (fun q => V c main_v37 (ix2 (0 : Fin 1) q)) (V c main_v24) (V c main_arg1)

/-- The printed index maps over the grid: the five node windows and the result window move with the point along the
    rows, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row `p` of block `t` is row `4000·t + p` of the array. -/
def rowAt (t : Fin cfg1.N) (p : Fin 4000) : Fin 100000 :=
  ⟨t.val * 4000 + p.val, by have h : cfg1.N = 25 := N_1; have := t.isLt; have := p.isLt; omega⟩

/-! ## Each window's block, read where it sits in its array -/

theorem read0 (c : Dev nD) (t : Fin cfg1.N) (p : Fin 4000) (k : Fin 128) :
    iblk1 V c 0 t (ix2 p k) = V c main_v25 (ix2 (rowAt t p) k) := by
  obtain ⟨e0, e1, -⟩ := idx_facts t
  have h : ((cfg1.win 0).blk t).view.emb (ix2 p k) = ix2 (rowAt t p) k := by
    funext a; apply Fin.ext
    match a with
    | ⟨0, _⟩ => show win1_0.index t (0 : Fin 2) * 4000 + 1 * p.val = t.val * 4000 + p.val; omega
    | ⟨1, _⟩ => show win1_0.index t (1 : Fin 2) * 128 + 1 * k.val = k.val; omega
  show V c main_v25 (((cfg1.win 0).blk t).view.emb (ix2 p k)) = _
  rw [h]

theorem read1 (c : Dev nD) (t : Fin cfg1.N) (p : Fin 4000) (k : Fin 128) :
    iblk1 V c 1 t (ix2 p k) = V c main_v35 (ix2 (rowAt t p) k) := by
  obtain ⟨-, -, e0, e1, -⟩ := idx_facts t
  have h : ((cfg1.win 1).blk t).view.emb (ix2 p k) = ix2 (rowAt t p) k := by
    funext a; apply Fin.ext
    match a with
    | ⟨0, _⟩ => show win1_1.index t (0 : Fin 2) * 4000 + 1 * p.val = t.val * 4000 + p.val; omega
    | ⟨1, _⟩ => show win1_1.index t (1 : Fin 2) * 128 + 1 * k.val = k.val; omega
  show V c main_v35 (((cfg1.win 1).blk t).view.emb (ix2 p k)) = _
  rw [h]

theorem read2 (c : Dev nD) (t : Fin cfg1.N) (p : Fin 4000) :
    iblk1 V c 2 t (ix2 p (0 : Fin 1)) = V c main_v8 (ix2 (rowAt t p) (0 : Fin 1)) := by
  obtain ⟨-, -, -, -, e0, e1, -⟩ := idx_facts t
  have h : ((cfg1.win 2).blk t).view.emb (ix2 p (0 : Fin 1)) = ix2 (rowAt t p) (0 : Fin 1) := by
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  show V c main_v8 (((cfg1.win 2).blk t).view.emb (ix2 p (0 : Fin 1))) = _
  rw [h]

theorem read3 (c : Dev nD) (t : Fin cfg1.N) : iblk1 V c 3 t = V c main_arg7 := by
  obtain ⟨-, -, -, -, -, -, e0, e1, -⟩ := idx_facts t
  funext y
  obtain ⟨k, q, rfl⟩ : ∃ (k : Fin 128) (q : Fin 64), y = ix2 k q := ⟨y 0, y 1, eq_ix2 y⟩
  have h : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 64 + 1 * q.val = q.val; omega
  show V c main_arg7 (((cfg1.win 3).blk t).view.emb (ix2 k q)) = _
  rw [h]

theorem read4 (c : Dev nD) (t : Fin cfg1.N) : iblk1 V c 4 t = V c main_arg8 := by
  obtain ⟨-, -, -, -, -, -, -, -, e0, e1, -⟩ := idx_facts t
  funext y
  obtain ⟨k, q, rfl⟩ : ∃ (k : Fin 128) (q : Fin 64), y = ix2 k q := ⟨y 0, y 1, eq_ix2 y⟩
  have h : ((cfg1.win 4).blk t).view.emb (ix2 k q) = ix2 k q := by
    funext a; apply Fin.ext
    match a with
    | ⟨0, _⟩ => show win1_4.index t (0 : Fin 2) * 128 + 1 * k.val = k.val; omega
    | ⟨1, _⟩ => show win1_4.index t (1 : Fin 2) * 64 + 1 * q.val = q.val; omega
  show V c main_arg8 (((cfg1.win 4).blk t).view.emb (ix2 k q)) = _
  rw [h]

theorem read5 (c : Dev nD) (t : Fin cfg1.N) (q : Fin 64) :
    iblk1 V c 5 t (ix2 (0 : Fin 1) q) = V c main_v37 (ix2 (0 : Fin 1) q) := by
  obtain ⟨-, -, -, -, -, -, -, -, -, -, e0, e1, -⟩ := idx_facts t
  have h : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 64 + 1 * q.val = q.val; omega
  show V c main_v37 (((cfg1.win 5).blk t).view.emb (ix2 (0 : Fin 1) q)) = _
  rw [h]

theorem read6 (c : Dev nD) (t : Fin cfg1.N) (p : Fin 4000) (q : Fin 64) :
    iblk1 V c 6 t (ix2 p q) = V c main_v24 (ix2 (rowAt t p) q) := by
  obtain ⟨-, -, -, -, -, -, -, -, -, -, -, -, e0, e1, -⟩ := idx_facts t
  have h : ((cfg1.win 6).blk t).view.emb (ix2 p q) = ix2 (rowAt t p) q := by
    funext a; apply Fin.ext
    match a with
    | ⟨0, _⟩ => show win1_6.index t (0 : Fin 2) * 4000 + 1 * p.val = t.val * 4000 + p.val; omega
    | ⟨1, _⟩ => show win1_6.index t (1 : Fin 2) * 64 + 1 * q.val = q.val; omega
  show V c main_v24 (((cfg1.win 6).blk t).view.emb (ix2 p q)) = _
  rw [h]

theorem read7 (c : Dev nD) (t : Fin cfg1.N) (p : Fin 4000) (q : Fin 64) :
    iblk1 V c 7 t (ix2 p q) = V c main_arg1 (ix2 (rowAt t p) q) := by
  obtain ⟨-, -, -, -, -, -, -, -, -, -, -, -, -, -, e0, e1, -⟩ := idx_facts t
  have h : ((cfg1.win 7).blk t).view.emb (ix2 p q) = ix2 (rowAt t p) q := by
    funext a; apply Fin.ext
    match a with
    | ⟨0, _⟩ => show win1_7.index t (0 : Fin 2) * 4000 + 1 * p.val = t.val * 4000 + p.val; omega
    | ⟨1, _⟩ => show win1_7.index t (1 : Fin 2) * 64 + 1 * q.val = q.val; omega
  show V c main_arg1 (((cfg1.win 7).blk t).view.emb (ix2 p q)) = _
  rw [h]

/-! ## What a point writes back, the cover, the array -/

/-- What point `t` writes back is block `t` of the new state of the whole arrays. -/
theorem flushed_eq (c : Dev nD) (t : Fin cfg1.N) :
    (dat1 V c).flushed 8 t = ((cfg1.win 8).blk t).view.read (Elt Ideal) (whole V c) := by
  show (cfg1.win 8).cut (grid1.coords t) ((dat1 V c).after 8 t) = _
  rw [after1_8, CandBlock.block_eq]
  obtain ⟨-, -, -, -, -, -, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg1.win 8).blk t).view.emb (ix2 p q) = ix2 (rowAt t p) q := by
    funext a; apply Fin.ext
    match a with
    | ⟨0, _⟩ => show win1_8.index t (0 : Fin 2) * 4000 + 1 * p.val = t.val * 4000 + p.val; omega
    | ⟨1, _⟩ => show win1_8.index t (1 : Fin 2) * 64 + 1 * q.val = q.val; omega
  show cand (iblk1 V c 0 t) (iblk1 V c 1 t) (CandBlock.colOf (iblk1 V c 2 t)) (iblk1 V c 3 t) (iblk1 V c 4 t)
      (CandBlock.rowOf (iblk1 V c 5 t)) (iblk1 V c 6 t) (iblk1 V c 7 t) (ix2 p q)
    = whole V c (((cfg1.win 8).blk t).view.emb (ix2 p q))
  rw [hemb, read3, read4]
  have hb : CandBlock.rowOf (iblk1 V c 5 t) = fun q => V c main_v37 (ix2 (0 : Fin 1) q) := funext fun q => read5 V c t q
  rw [hb]
  unfold whole
  rw [cand_ix2, cand_ix2]
  exact candAt_rows _ _ _ _ _ _ _ _ _ _ _ _ _ p (rowAt t p) q (read0 V c t p) (read1 V c t p) (read2 V c t p)
    (read6 V c t p q) (read7 V c t p q)

/-- An index of the array is in point `t`'s block iff each coordinate is in the block's range on its axis. -/
theorem mem_blk (t : Fin cfg1.N) (i : S100000x64.Idx) :
    i ∈ ((cfg1.win 8).blk t).view.set ↔ ∀ a : Fin 2, win1_8.index t a * S4000x64.size a ≤ (i a).val
      ∧ (i a).val < win1_8.index t a * S4000x64.size a + S4000x64.size a := by
  show i ∈ ((View.whole main_v38).slice (win1_8.rect t)).set ↔ _
  rw [View.set_slice_whole, Rect.mem_set_unit]
  exact Iff.rfl

/-- Every row is in the block of the point numbered by the row's quotient by 4000. -/
theorem cover (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 64 ≤ (i 1).val ∧ (i 1).val < win1_8.index t (1 : Fin 2) * 64 + 64
    omega

/-- The result array after the candidate stage is the new state of the whole arrays. -/
theorem final (c : Dev nD) : (dat1 V c).arrAt 8 cfg1.N = whole V c :=
  (dat1 V c).arrAt_eq_of_cover 8 (whole V c) (fun t _ => flushed_eq V c t) cover

end Cert.KernelIdeal.CandArray

end
-- ==== Proof.RefRead.lean ====
/-
  The reference program's stages, read in the vocabulary of the cell (Cell.lean).

  The reference divides each node's summed neighbour features by its in-degree floored at one and adds the two biases of
  a layer one after the other; its logistic is spelt `1 / (1 + e^(−y))`.  Entry by entry these are the cell's layer with
  the factor `1 / max(deg, 1)` and the summed bias, and the cell's logistic.
-/
import proofs.«178876_j27101243638400_2_alg».proof.Proof.Gen.ReferenceIdeal.Read
import proofs.«178876_j27101243638400_2_alg».proof.Proof.Cell

noncomputable section

open scoped BigOperators

namespace Cert.RefRead

open Cert.ReferenceIdeal Cert.ReferenceIdeal.Gen Cert.ReferenceIdeal.Read Cert.Cell
open Idealize.ShloMosaic Idealize.ShloMosaic.ValueIdx

/-- A node's factor: one over its in-degree floored at one. -/
def scale (a3 : (⟨S1600000, .i32⟩ : BufTy).Contents (Elt Ideal)) : Fin 100000 → EReal :=
  fun p => Ideal.div (Ideal.ofBits .f32 0x3F800000#32) (val_main_v17 (F := Ideal) a3 (ix1 p))

/-- The gate layer's bias: the sum of its two bias vectors. -/
def bias128 (a6 a10 : (⟨S128, .f32⟩ : BufTy).Contents (Elt Ideal)) : Fin 128 → EReal := fun q => a6 (ix1 q) + a10 (ix1 q)

/-- The candidate layer's bias: the sum of its two bias vectors. -/
def bias64 (a9 a11 : (⟨S64, .f32⟩ : BufTy).Contents (Elt Ideal)) : Fin 64 → EReal := fun q => a9 (ix1 q) + a11 (ix1 q)

variable (a0 a1 : (⟨S100000x64, .f32⟩ : BufTy).Contents (Elt Ideal)) (a2 a3 : (⟨S1600000, .i32⟩ : BufTy).Contents (Elt Ideal))
  (a4 a5 : (⟨S128x128, .f32⟩ : BufTy).Contents (Elt Ideal)) (a6 : (⟨S128, .f32⟩ : BufTy).Contents (Elt Ideal))
  (a7 a8 : (⟨S128x64, .f32⟩ : BufTy).Contents (Elt Ideal)) (a9 : (⟨S64, .f32⟩ : BufTy).Contents (Elt Ideal))
  (a10 : (⟨S128, .f32⟩ : BufTy).Contents (Elt Ideal)) (a11 : (⟨S64, .f32⟩ : BufTy).Contents (Elt Ideal))

/-! ## Indices of the generated stages, by coordinates -/

theorem lidx_v1 (p : Fin 100000) (q k : Fin 128) : lidx_main_v1 (ix2 p q) k = ix2 p k :=
  funext fun a => Fin.ext (by match a with | ⟨0, _⟩ => rfl | ⟨1, _⟩ => rfl)
theorem ridx_v1 (p : Fin 100000) (q k : Fin 128) : ridx_main_v1 (ix2 p q) k = ix2 k q :=
  funext fun a => Fin.ext (by match a with | ⟨0, _⟩ => rfl | ⟨1, _⟩ => rfl)
theorem lidx_v21 (p : Fin 100000) (q k : Fin 128) : lidx_main_v21 (ix2 p q) k = ix2 p k :=
  funext fun a => Fin.ext (by match a with | ⟨0, _⟩ => rfl | ⟨1, _⟩ => rfl)
theorem ridx_v21 (p : Fin 100000) (q k : Fin 128) : ridx_main_v21 (ix2 p q) k = ix2 k q :=
  funext fun a => Fin.ext (by match a with | ⟨0, _⟩ => rfl | ⟨1, _⟩ => rfl)
theorem lidx_v39 (p : Fin 100000) (q : Fin 64) (k : Fin 128) : lidx_main_v39 (ix2 p q) k = ix2 p k :=
  funext fun a => Fin.ext (by match a with | ⟨0, _⟩ => rfl | ⟨1, _⟩ => rfl)
theorem ridx_v39 (p : Fin 100000) (q : Fin 64) (k : Fin 128) : ridx_main_v39 (ix2 p q) k = ix2 k q :=
  funext fun a => Fin.ext (by match a with | ⟨0, _⟩ => rfl | ⟨1, _⟩ => rfl)
theorem lidx_v59 (p : Fin 100000) (q : Fin 64) (k : Fin 128) : lidx_main_v59 (ix2 p q) k = ix2 p k :=
  funext fun a => Fin.ext (by match a with | ⟨0, _⟩ => rfl | ⟨1, _⟩ => rfl)
theorem ridx_v59 (p : Fin 100000) (q : Fin 64) (k : Fin 128) : ridx_main_v59 (ix2 p q) k = ix2 k q :=
  funext fun a => Fin.ext (by match a with | ⟨0, _⟩ => rfl | ⟨1, _⟩ => rfl)
theorem idx_v35 (p : Fin 100000) (q : Fin 64) : idx_main_v35 (ix2 p q) = ix2 p (lo q) :=
  funext fun a => Fin.ext (by match a with | ⟨0, _⟩ => rfl | ⟨1, _⟩ => rfl)
theorem idx_v36 (p : Fin 100000) (q : Fin 64) : idx_main_v36 (ix2 p q) = ix2 p (hi q) :=
  funext fun a => Fin.ext (by match a with | ⟨0, _⟩ => rfl | ⟨1, _⟩ => rfl)

/-! ## The joined node features -/

/-- The second half of a row of the joined array (inputs | state) is the state's row. -/
theorem joined_hi (p : Fin 100000) (j : Fin 64) : val_main_v0 (F := Ideal) a0 a1 (ix2 p (hi j)) = a1 (ix2 p j) := by
  unfold val_main_v0
  refine concatenate_pair_apply_right (1 : Fin S100000x128.rank) a0 a1 _ (ix2 p (hi j)) rfl rfl (ix2 p j) ?_ ?_
  · intro b hb
    match b, hb with
    | ⟨0, _⟩, _ => rfl
    | ⟨1, _⟩, hb => exact absurd rfl hb
  · show j.val + 64 = 64 + j.val
    omega

/-! ## The floored in-degree -/

/-- The in-degree floored at one is at least one. -/
theorem one_le_deg (p : Fin 100000) : (1 : EReal) ≤ val_main_v17 (F := Ideal) a3 (ix1 p) := by
  rw [val_main_v17_apply, val_main_v16_apply, val_main_cst_3_apply]
  simp only [Ideal.maximumf_def, Ideal.ofBits_def]
  rw [one_word]
  exact le_max_right _ _

/-- The node's factor with its numerator read as one. -/
theorem scale_eq : scale a3 = fun p => Ideal.div 1 (val_main_v17 (F := Ideal) a3 (ix1 p)) := by
  funext p
  unfold scale
  rw [one_word]

/-- The degree of the second layer is the degree of the first: the same computation under other stage names. -/
theorem deg_again : val_main_v55 (F := Ideal) a3 = val_main_v17 (F := Ideal) a3 := rfl

/-! ## The gate layer -/

/-- The neighbour sum of the gate layer divided by the floored in-degree, at an entry. -/
theorem gate_mean (p : Fin 100000) (k : Fin 128) :
    val_main_v20 (F := Ideal) a0 a1 a2 a3 (ix2 p k)
      = Ideal.div (val_main_v11 (F := Ideal) a0 a1 a2 a3 (ix2 p k)) (val_main_v17 (F := Ideal) a3 (ix1 p)) := by
  rw [val_main_v20_apply, val_main_v19_apply, val_main_v18_apply]
  simp only [Ideal.hostDivf_def]
  exact congrArg (fun t => Ideal.div _ (val_main_v17 (F := Ideal) a3 t))
    (funext fun a => Fin.ext (by match a with | ⟨0, _⟩ => rfl))

theorem gate_self (p : Fin 100000) (q : Fin 128) :
    val_main_v1 (F := Ideal) a0 a1 a4 (ix2 p q) = ∑ k : Fin 128, val_main_v0 (F := Ideal) a0 a1 (ix2 p k) * a4 (ix2 k q) := by
  rw [val_main_v1_apply]
  exact Finset.sum_congr rfl fun k _ => by rw [lidx_v1, ridx_v1]

theorem gate_neigh (p : Fin 100000) (q : Fin 128) :
    val_main_v21 (F := Ideal) a0 a1 a2 a3 a5 (ix2 p q)
      = ∑ k : Fin 128, Ideal.div (val_main_v11 (F := Ideal) a0 a1 a2 a3 (ix2 p k)) (val_main_v17 (F := Ideal) a3 (ix1 p)) * a5 (ix2 k q) := by
  rw [val_main_v21_apply]
  exact Finset.sum_congr rfl fun k _ => by rw [lidx_v21, ridx_v21, gate_mean]

theorem gate_bias₁ (p : Fin 100000) (q : Fin 128) : val_main_v24 (F := Ideal) a6 (ix2 p q) = a6 (ix1 q) := by
  rw [val_main_v24_apply, val_main_v23_apply]
  exact congrArg a6 (funext fun a => Fin.ext (by match a with | ⟨0, _⟩ => rfl))

theorem gate_bias₂ (p : Fin 100000) (q : Fin 128) : val_main_v27 (F := Ideal) a10 (ix2 p q) = a10 (ix1 q) := by
  rw [val_main_v27_apply, val_main_v26_apply]
  exact congrArg a10 (funext fun a => Fin.ext (by match a with | ⟨0, _⟩ => rfl))

/-- The gate layer before its logistic, at an entry. -/
theorem gate_layer (p : Fin 100000) (q : Fin 128) :
    val_main_v28 (F := Ideal) a0 a1 a2 a3 a4 a5 a6 a10 (ix2 p q)
      = layerAt (val_main_v0 (F := Ideal) a0 a1) (val_main_v11 (F := Ideal) a0 a1 a2 a3) (scale a3) a4 a5 (bias128 a6 a10) p q := by
  rw [scale_eq]
  refine Eq.trans ?_ (layer_div_form (val_main_v0 (F := Ideal) a0 a1) (val_main_v11 (F := Ideal) a0 a1 a2 a3)
    (fun p => val_main_v17 (F := Ideal) a3 (ix1 p)) (one_le_deg a3) a4 a5 (fun q => a6 (ix1 q)) (fun q => a10 (ix1 q)) p q)
  rw [val_main_v28_apply, val_main_v25_apply, val_main_v22_apply, gate_self, gate_neigh, gate_bias₁, gate_bias₂]
  rfl

/-- The gate layer's logistic, at an entry. -/
theorem gate_logistic (p : Fin 100000) (q : Fin 128) :
    val_main_v34 (F := Ideal) a0 a1 a2 a3 a4 a5 a6 a10 (ix2 p q)
      = Ideal.logistic (layerAt (val_main_v0 (F := Ideal) a0 a1) (val_main_v11 (F := Ideal) a0 a1 a2 a3) (scale a3) a4 a5 (bias128 a6 a10) p q) := by
  rw [val_main_v34_apply, val_main_v33_apply, val_main_cst_5_apply, val_main_v32_apply, val_main_v31_apply,
    val_main_cst_4_apply, val_main_v30_apply, val_main_v29_apply, gate_layer]
  simp only [Ideal.hostDivf_def, Ideal.ofBits_def, Ideal.addf_def, Ideal.hostUnary_exp_def, Ideal.hostNegf_def, Ideal.negf_def]
  exact logistic_words _

/-! ## The candidate layer -/

/-- The neighbour sum of the candidate layer divided by the floored in-degree, at an entry. -/
theorem cand_mean (p : Fin 100000) (k : Fin 128) :
    val_main_v58 (F := Ideal) a0 a1 a2 a3 a4 a5 a6 a10 (ix2 p k)
      = Ideal.div (val_main_v49 (F := Ideal) a0 a1 a2 a3 a4 a5 a6 a10 (ix2 p k)) (val_main_v17 (F := Ideal) a3 (ix1 p)) := by
  rw [val_main_v58_apply, val_main_v57_apply, val_main_v56_apply, deg_again]
  simp only [Ideal.hostDivf_def]
  exact congrArg (fun t => Ideal.div _ (val_main_v17 (F := Ideal) a3 t))
    (funext fun a => Fin.ext (by match a with | ⟨0, _⟩ => rfl))

theorem cand_self (p : Fin 100000) (q : Fin 64) :
    val_main_v39 (F := Ideal) a0 a1 a2 a3 a4 a5 a6 a7 a10 (ix2 p q)
      = ∑ k : Fin 128, val_main_v38 (F := Ideal) a0 a1 a2 a3 a4 a5 a6 a10 (ix2 p k) * a7 (ix2 k q) := by
  rw [val_main_v39_apply]
  exact Finset.sum_congr rfl fun k _ => by rw [lidx_v39, ridx_v39]

theorem cand_neigh (p : Fin 100000) (q : Fin 64) :
    val_main_v59 (F := Ideal) a0 a1 a2 a3 a4 a5 a6 a8 a10 (ix2 p q)
      = ∑ k : Fin 128, Ideal.div (val_main_v49 (F := Ideal) a0 a1 a2 a3 a4 a5 a6 a10 (ix2 p k)) (val_main_v17 (F := Ideal) a3 (ix1 p)) * a8 (ix2 k q) := by
  rw [val_main_v59_apply]
  exact Finset.sum_congr rfl fun k _ => by rw [lidx_v59, ridx_v59, cand_mean]

theorem cand_bias₁ (p : Fin 100000) (q : Fin 64) : val_main_v62 (F := Ideal) a9 (ix2 p q) = a9 (ix1 q) := by
  rw [val_main_v62_apply, val_main_v61_apply]
  exact congrArg a9 (funext fun a => Fin.ext (by match a with | ⟨0, _⟩ => rfl))

theorem cand_bias₂ (p : Fin 100000) (q : Fin 64) : val_main_v65 (F := Ideal) a11 (ix2 p q) = a11 (ix1 q) := by
  rw [val_main_v65_apply, val_main_v64_apply]
  exact congrArg a11 (funext fun a => Fin.ext (by match a with | ⟨0, _⟩ => rfl))

/-- The candidate layer before its hyperbolic tangent, at an entry. -/
theorem cand_layer (p : Fin 100000) (q : Fin 64) :
    val_main_v66 (F := Ideal) a0 a1 a2 a3 a4 a5 a6 a7 a8 a9 a10 a11 (ix2 p q)
      = layerAt (val_main_v38 (F := Ideal) a0 a1 a2 a3 a4 a5 a6 a10) (val_main_v49 (F := Ideal) a0 a1 a2 a3 a4 a5 a6 a10) (scale a3) a7 a8 (bias64 a9 a11) p q := by
  rw [scale_eq]
  refine Eq.trans ?_ (layer_div_form (val_main_v38 (F := Ideal) a0 a1 a2 a3 a4 a5 a6 a10) (val_main_v49 (F := Ideal) a0 a1 a2 a3 a4 a5 a6 a10)
    (fun p => val_main_v17 (F := Ideal) a3 (ix1 p)) (one_le_deg a3) a7 a8 (fun q => a9 (ix1 q)) (fun q => a11 (ix1 q)) p q)
  rw [val_main_v66_apply, val_main_v63_apply, val_main_v60_apply, cand_self, cand_neigh, cand_bias₁, cand_bias₂]
  rfl

/-- The reference's reset gate times state is the first half of the gate array. -/
theorem reset_state :
    val_main_v37 (F := Ideal) a0 a1 a2 a3 a4 a5 a6 a10
      = fun i => gate (val_main_v0 (F := Ideal) a0 a1) (val_main_v11 (F := Ideal) a0 a1 a2 a3) (scale a3) a4 a5 (bias128 a6 a10)
          (ix2 (i 0) (lo (i 1))) := by
  funext i
  obtain ⟨p, q, rfl⟩ : ∃ (p : Fin 100000) (q : Fin 64), i = ix2 p q := ⟨i 0, i 1, eq_ix2 i⟩
  show val_main_v37 (F := Ideal) a0 a1 a2 a3 a4 a5 a6 a10 (ix2 p q) = gate _ _ _ _ _ _ (ix2 p (lo q))
  rw [gate_ix2, gateAt_lo, joined_hi, val_main_v37_apply, val_main_v35_apply, idx_v35, gate_logistic]
  rfl

/-- The reference's update gate is the second half of the gate array. -/
theorem update :
    val_main_v36 (F := Ideal) a0 a1 a2 a3 a4 a5 a6 a10
      = fun i => gate (val_main_v0 (F := Ideal) a0 a1) (val_main_v11 (F := Ideal) a0 a1 a2 a3) (scale a3) a4 a5 (bias128 a6 a10)
          (ix2 (i 0) (hi (i 1))) := by
  funext i
  obtain ⟨p, q, rfl⟩ : ∃ (p : Fin 100000) (q : Fin 64), i = ix2 p q := ⟨i 0, i 1, eq_ix2 i⟩
  show val_main_v36 (F := Ideal) a0 a1 a2 a3 a4 a5 a6 a10 (ix2 p q) = gate _ _ _ _ _ _ (ix2 p (hi q))
  rw [gate_ix2, gateAt_hi, val_main_v36_apply, idx_v36, gate_logistic]

/-- The reference's result is the cell's new state over the reference's own candidate input, neighbour sum and update
    gate. -/
theorem new_state :
    val_main_v72 (F := Ideal) a0 a1 a2 a3 a4 a5 a6 a7 a8 a9 a10 a11
      = cand (val_main_v38 (F := Ideal) a0 a1 a2 a3 a4 a5 a6 a10) (val_main_v49 (F := Ideal) a0 a1 a2 a3 a4 a5 a6 a10) (scale a3) a7 a8
          (bias64 a9 a11) (val_main_v36 (F := Ideal) a0 a1 a2 a3 a4 a5 a6 a10) a1 := by
  funext i
  obtain ⟨p, q, rfl⟩ : ∃ (p : Fin 100000) (q : Fin 64), i = ix2 p q := ⟨i 0, i 1, eq_ix2 i⟩
  rw [cand_ix2]
  unfold candAt
  rw [← cand_layer a0 a1 a2 a3 a4 a5 a6 a7 a8 a9 a10 a11 p q, val_main_v72_apply, val_main_v68_apply, val_main_v71_apply,
    val_main_v70_apply, val_main_v69_apply, val_main_cst_12_apply, val_main_v67_apply]
  rfl

end Cert.RefRead

end
-- ==== Proof.Bridge.lean ====
/-
  The idealized kernel program's result array is the reference's result, as functions of the twelve argument arrays.

  The kernel program's host terms are the reference's stages: the joined node arrays, the neighbour sums (the same
  gather and scatter-add of the same arrays, carried as one function, never opened), the factor column (entry `p` is
  `1 / max(degree p, 1)`), the bias rows (entry `q` is the sum of the two bias vectors at `q`).  So the gate stage's
  array is the gate array in the reference's vocabulary; its two halves are the reference's reset-gate-times-state and
  update-gate arrays; hence the candidate stage's operands are the reference's, and the new states agree.
-/
import proofs.«178876_j27101243638400_2_alg».proof.Proof.Stages
import proofs.«178876_j27101243638400_2_alg».proof.Proof.GateArray
import proofs.«178876_j27101243638400_2_alg».proof.Proof.CandArray
import proofs.«178876_j27101243638400_2_alg».proof.Proof.RefRead
import proofs.«178876_j27101243638400_2_alg».proof.Proof.LibColumn
import Idealize.ShloMosaic.Lib.ValueLayout

set_option maxRecDepth 16384

noncomputable section

namespace Cert.Bridge

open Cert.KernelIdeal Cert.KernelIdeal.Gen Cert.KernelIdeal.Stages Cert.Cell
open Idealize.ShloMosaic Idealize.ShloMosaic.TcCoe Idealize.ShloMosaic.ValueIdx Idealize.SL.Sem

variable (a0 a1 : (⟨S100000x64, .f32⟩ : BufTy).Contents (Elt Ideal)) (a2 a3 : (⟨S1600000, .i32⟩ : BufTy).Contents (Elt Ideal))
  (a4 a5 : (⟨S128x128, .f32⟩ : BufTy).Contents (Elt Ideal)) (a6 : (⟨S128, .f32⟩ : BufTy).Contents (Elt Ideal))
  (a7 a8 : (⟨S128x64, .f32⟩ : BufTy).Contents (Elt Ideal)) (a9 : (⟨S64, .f32⟩ : BufTy).Contents (Elt Ideal))
  (a10 : (⟨S128, .f32⟩ : BufTy).Contents (Elt Ideal)) (a11 : (⟨S64, .f32⟩ : BufTy).Contents (Elt Ideal))

/-! ## The host terms are the reference's stages -/

theorem joined_eq : joined a0 a1 = Cert.ReferenceIdeal.Read.val_main_v0 (F := Ideal) a0 a1 := rfl

theorem neighSum_eq : neighSum (joined a0 a1) a2 a3 = Cert.ReferenceIdeal.Read.val_main_v11 (F := Ideal) a0 a1 a2 a3 := rfl

/-- The two programs count a node's incoming edges by the same scatter-add. -/
theorem hdeg : degree a3 = Cert.ReferenceIdeal.Read.val_main_v15 (F := Ideal) a3 := rfl

/-- The factor column read at a row. -/
theorem factor_read (p : Fin 100000) : factor a3 (ix2 p (0 : Fin 1))
    = (Host.divf (broadcastInDim S100000 ![] bcast_S_S100000 (constant (F := Ideal) S_ .f32 0x3F800000#32))
        (maximumf (degree a3) (broadcastInDim S100000 ![] bcast_S_S100000 (constant (F := Ideal) S_ .f32 0x3F800000#32)))) (ix1 p) :=
  Cert.LibColumn.shapeCast_a_a1_apply _ _ p (0 : Fin 1)

/-- One over the floored count, entry by entry. -/
theorem recip_floor (d : (⟨S100000, .f32⟩ : BufTy).Contents (Elt Ideal)) (p : Fin 100000) :
    (Host.divf (broadcastInDim S100000 ![] bcast_S_S100000 (constant (F := Ideal) S_ .f32 0x3F800000#32))
      (maximumf d (broadcastInDim S100000 ![] bcast_S_S100000 (constant (F := Ideal) S_ .f32 0x3F800000#32)))) (ix1 p)
      = Ideal.div (Ideal.ofBits .f32 0x3F800000#32) (max (d (ix1 p)) (Ideal.ofBits .f32 0x3F800000#32)) := by
  simp only [Host.divf, maximumf, broadcastInDim, constant, Ideal.hostDivf_def, Ideal.maximumf_def, Ideal.ofBits_def]

/-- The reference's floored count, entry by entry. -/
theorem floor_read (p : Fin 100000) : Cert.ReferenceIdeal.Read.val_main_v17 (F := Ideal) a3 (ix1 p)
    = max (Cert.ReferenceIdeal.Read.val_main_v15 (F := Ideal) a3 (ix1 p)) (Ideal.ofBits .f32 0x3F800000#32) := by
  rw [Cert.ReferenceIdeal.Read.val_main_v17_apply, Cert.ReferenceIdeal.Read.val_main_v16_apply, Cert.ReferenceIdeal.Read.val_main_cst_3_apply]
  rfl

/-- The factor column at row `p` is `1 / max(degree p, 1)`. -/
theorem factor_col : (fun p : Fin 100000 => factor a3 (ix2 p (0 : Fin 1))) = Cert.RefRead.scale a3 := by
  funext p
  unfold Cert.RefRead.scale
  calc factor a3 (ix2 p (0 : Fin 1))
      = Ideal.div (Ideal.ofBits .f32 0x3F800000#32) (max (degree a3 (ix1 p)) (Ideal.ofBits .f32 0x3F800000#32)) :=
        (factor_read a3 p).trans (recip_floor (degree a3) p)
    _ = Ideal.div (Ideal.ofBits .f32 0x3F800000#32) (Cert.ReferenceIdeal.Read.val_main_v17 (F := Ideal) a3 (ix1 p)) := by
        rw [floor_read a3 p, hdeg a3]

/-- The gate layer's bias row at `q` is the sum of the two bias vectors at `q`. -/
theorem bias128_row : (fun q : Fin 128 => biasRow128 a6 a10 (ix2 (0 : Fin 1) q)) = Cert.RefRead.bias128 a6 a10 := by
  funext q
  refine (shapeCast_a_1a_apply _ _ (0 : Fin 1) q).trans ?_
  unfold Cert.RefRead.bias128
  exact addf_apply a6 a10 (ix1 q)

/-- The candidate layer's bias row at `q` is the sum of the two bias vectors at `q`. -/
theorem bias64_row : (fun q : Fin 64 => biasRow64 a9 a11 (ix2 (0 : Fin 1) q)) = Cert.RefRead.bias64 a9 a11 := by
  funext q
  refine (shapeCast_a_1a_apply _ _ (0 : Fin 1) q).trans ?_
  unfold Cert.RefRead.bias64
  exact addf_apply a9 a11 (ix1 q)

/-- The gate array in the reference's vocabulary. -/
def gateRef : Arr 100000 128 :=
  gate (Cert.ReferenceIdeal.Read.val_main_v0 (F := Ideal) a0 a1) (Cert.ReferenceIdeal.Read.val_main_v11 (F := Ideal) a0 a1 a2 a3) (Cert.RefRead.scale a3) a4 a5
    (Cert.RefRead.bias128 a6 a10)

/-- Its first 64 columns are the reference's reset gate times state. -/
theorem slice_lo :
    extractStridedSlice S100000x64 ![0, 0] (gateRef a0 a1 a2 a3 a4 a5 a6 a10) slices_S100000x128_S100000x64_0_0
      = Cert.ReferenceIdeal.Read.val_main_v37 (F := Ideal) a0 a1 a2 a3 a4 a5 a6 a10 := by
  rw [Cert.RefRead.reset_state]
  funext i
  obtain ⟨p, j, rfl⟩ : ∃ (p : Fin 100000) (j : Fin 64), i = ix2 p j := ⟨i 0, i 1, eq_ix2 i⟩
  exact slice2_axis1_apply 0 _ _ p j (lo j) (by rw [lo_val]; omega)

/-- Its last 64 columns are the reference's update gate. -/
theorem slice_hi :
    extractStridedSlice S100000x64 ![0, 64] (gateRef a0 a1 a2 a3 a4 a5 a6 a10) slices_S100000x128_S100000x64_0_64
      = Cert.ReferenceIdeal.Read.val_main_v36 (F := Ideal) a0 a1 a2 a3 a4 a5 a6 a10 := by
  rw [Cert.RefRead.update]
  funext i
  obtain ⟨p, j, rfl⟩ : ∃ (p : Fin 100000) (j : Fin 64), i = ix2 p j := ⟨i 0, i 1, eq_ix2 i⟩
  exact slice2_axis1_apply 64 _ _ p j (hi j) rfl

theorem joined2_eq : joined a0 (Cert.ReferenceIdeal.Read.val_main_v37 (F := Ideal) a0 a1 a2 a3 a4 a5 a6 a10) = Cert.ReferenceIdeal.Read.val_main_v38 (F := Ideal) a0 a1 a2 a3 a4 a5 a6 a10 := rfl

theorem neighSum2_eq :
    neighSum (Cert.ReferenceIdeal.Read.val_main_v38 (F := Ideal) a0 a1 a2 a3 a4 a5 a6 a10) a2 a3 = Cert.ReferenceIdeal.Read.val_main_v49 (F := Ideal) a0 a1 a2 a3 a4 a5 a6 a10 := rfl

end Cert.Bridge

end
-- ==== Proof.WholeRun.lean ====
/-
  The idealized kernel program's run with its result array named: every weakly fair execution ends, nothing faulting,
  with the result buffer at the contents the last region's write-backs leave (the frame's last boundary contents, read
  at the result buffer) and the argument arrays as launched.
-/
import proofs.«178876_j27101243638400_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read off the last boundary's contents. -/
theorem run_named : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Whole

end
-- ==== Proof.Result.lean ====
/-
  The idealized kernel program's result, read all the way: the candidate stage's array is the new state of its operands;
  its operands are the host terms of the gate stage's array; the gate stage's array is the gate array of the host terms of
  the arguments; and all of these are the reference's stages.  So the result buffer ends holding the reference's result of
  the same arguments.
-/
import proofs.«178876_j27101243638400_2_alg».proof.Proof.Bridge
import proofs.«178876_j27101243638400_2_alg».proof.Proof.WholeRun

set_option maxRecDepth 16384

noncomputable section

namespace Cert.Result

open Cert.KernelIdeal Cert.KernelIdeal.Gen Cert.KernelIdeal.Stages Cert.Cell Cert.Bridge
open Idealize.ShloMosaic Idealize.ShloMosaic.TcCoe Idealize.ShloMosaic.ValueIdx Idealize.SL.Sem

variable (m : (ℓ : Loc nD τ sig) → Buf (Elt Ideal) ℓ) (ρ : Dev nD → PrngReg)

/-- The gate stage's array is the gate array in the reference's vocabulary. -/
theorem gate_array (c : Dev nD) : gateArr m ρ c = gateRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) := by
  show (dat0 (V1 m ρ) c).arrAt 6 cfg0.N = _
  rw [GateArray.final (V1 m ρ) c]
  unfold GateArray.whole gateRef
  rw [V1_v9, V1_v19, V1_v8, V1_arg4, V1_arg5, V1_v21, neighSum_eq, joined_eq, factor_col, bias128_row]

/-- The result array is the reference's result of the same arguments. -/
theorem result (c : Dev nD) :
    W4 m ρ c (Proc.devRef .tc main_v38) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W4 m ρ c (Proc.devRef .tc main_v38) = (dat1 (V3 m ρ) c).arrAt 8 cfg1.N from W4_arr m ρ c 8,
    CandArray.final (V3 m ρ) c]
  unfold CandArray.whole
  rw [V3_v25, V3_v35, V3_v8, V3_arg7, V3_arg8, V3_v37, V3_v24, V3_arg1, gate_array, slice_lo, slice_hi, joined2_eq,
    neighSum2_eq, factor_col, bias64_row]
  exact (Cert.RefRead.new_state _ _ _ _ _ _ _ _ _ _ _ _).symm

/-- The run of the idealized kernel program, its result buffer at the reference's result of the arguments. -/
theorem run : θ_run (defs (F := Ideal)) (onTc (τ := τ) (main (F := Ideal))) ⟨m, fun _ => 0, ρ⟩ (fun r => ∀ c : Dev nD,
      r.2.mem ((c.tc : Thread nD τ).loc main_v38) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (Cert.KernelIdeal.Whole.run_named m ρ)

end Cert.Result

end
-- ==== Proof.lean ====
/-
  A gated recurrent cell over a graph: the kernel program against its reference, on the extended reals.

  Both programs join the node inputs and states, sum the joined features over every node's incoming edges, apply a
  graph-convolution layer with 128 output features and the logistic, split it into a reset gate and an update gate `u`,
  join the inputs with reset gate times state, sum that over the edges, apply a second layer with 64 output features and
  the hyperbolic tangent `c`, and return `u · state + (1 − u) · c`.  The kernel program computes the two layers block of
  4000 nodes by block of 4000 nodes, multiplies each node's neighbour sum by `1 / max(degree, 1)` where the reference
  divides by `max(degree, 1)`, and adds a layer's two bias vectors to each other first where the reference adds them to
  the layer one after the other.  On the extended reals these agree: a layer's entry reads one row of the node arrays
  only; dividing by a number that is at least one is multiplying by its reciprocal; addition is associative.  No
  finiteness of the inputs is used.

  The three frames: the two kernel programs' are the generated frame certificates; the reference's is its generated run
  with the result dropped.  The idealization rewrote no operation, so there is nothing to preserve.
-/
import proofs.«178876_j27101243638400_2_alg».proof.Defs
import proofs.«178876_j27101243638400_2_alg».proof.Proof.Gen.Kernel
import proofs.«178876_j27101243638400_2_alg».proof.Proof.Gen.Kernel.Skeleton
import proofs.«178876_j27101243638400_2_alg».proof.Proof.Gen.Kernel.Launch
import proofs.«178876_j27101243638400_2_alg».proof.Proof.Gen.Kernel.Points
import proofs.«178876_j27101243638400_2_alg».proof.Proof.Gen.Kernel.Frame
import proofs.«178876_j27101243638400_2_alg».proof.Proof.Gen.KernelIdeal
import proofs.«178876_j27101243638400_2_alg».proof.Proof.Gen.KernelIdeal.Skeleton
import proofs.«178876_j27101243638400_2_alg».proof.Proof.Gen.KernelIdeal.Launch
import proofs.«178876_j27101243638400_2_alg».proof.Proof.Gen.KernelIdeal.Points
import proofs.«178876_j27101243638400_2_alg».proof.Proof.Gen.KernelIdeal.Frame
import proofs.«178876_j27101243638400_2_alg».proof.Proof.Gen.ReferenceIdeal
import proofs.«178876_j27101243638400_2_alg».proof.Proof.Gen.Pre_finite_inputs
import proofs.«178876_j27101243638400_2_alg».proof.Proof.Gen.ReferenceIdeal.Run
import proofs.«178876_j27101243638400_2_alg».proof.Proof.Gen.ReferenceIdeal.Read
import proofs.«178876_j27101243638400_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments the idealized kernel program ends with its result buffer at the
    reference's result of its own arguments, and the reference at its result of arguments that are the same. -/
theorem algebraic : Cert.algebraic_KernelIdeal_ReferenceIdeal := by
  intro m ρ m' ρ' _ hagree
  refine ⟨_, Cert.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v72_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
